-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x1 : Shape := ⟨2, ![1600000, 1]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x2 .f32) (main_arg8 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x2 .f32 := Host.absf main_arg7
  let main_cst_10 : FVec F S_ .f32 := constant S_ .f32 0x7F800000#32
  let main_v30 : FVec F S64x2 .f32 := broadcastInDim S64x2 ![] bcast_S_S64x2 main_cst_10
  let main_v31 : IVec S64x2 1 := cmpf .olt main_v29 main_v30
  let main_c_11 : IVec S_ 1 := constantI S_ 1 1#1
  let main_v32 : IVec S_ 1 := (fun x v => Host.reduce IntOp.andi x v reducesTo_S64x2_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000x1 .f32) (main_arg3 : FVec F S64x64 .f32) (main_arg4 : FVec F S64 .f32) (main_arg5 : FVec F S64x64 .f32) (main_arg6 : FVec F S64 .f32) (main_arg7 : FVec F S64x2 .f32) (main_arg8 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000x1 : Shape := ⟨2, ![1600000, 1]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S100000x2 : Shape := ⟨2, ![100000, 2]⟩
abbrev S5000x2 : Shape := ⟨2, ![5000, 2]⟩
abbrev S1x2 : Shape := ⟨2, ![1, 2]⟩

abbrev nBuf : Space → Nat
  | .hbm => 77
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x1, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x1, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S100000x64, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x64, .f32⟩
  | .hbm, ⟨69, _⟩ => ⟨S1700000x1, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64, .f32⟩
  | .local _ .vmem, ⟨14, _⟩ => ⟨S64x2, .f32⟩
  | .local _ .vmem, ⟨15, _⟩ => ⟨S2, .f32⟩
  | .local _ .vmem, ⟨16, _⟩ => ⟨S5000x2, .f32⟩
  | .local _ .vmem, ⟨17, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2.size a ≤ S64x2.size a
  hwx2_2 : ∀ i : grid2.Coords, EltTy.bits .f32 = 32 ∨ (Rect.block (s := S64x2) S64x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2.size a ≤ S2.size a
  hwx2_3 : ∀ i : grid2.Coords, EltTy.bits .f32 = 32 ∨ (Rect.block (s := S2) S2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x2.size a ≤ S100000x2.size a
  hwx2_4 : ∀ i : grid2.Coords, EltTy.bits .f32 = 32 ∨ (Rect.block (s := S100000x2) S5000x2.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S5000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x1 : Shape := ⟨2, ![1600000, 1]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 121
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x1, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000x64, .f32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x1, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000, .i32⟩
  | .hbm, ⟨67, _⟩ => ⟨S1700000, .i32⟩
  | .hbm, ⟨68, _⟩ => ⟨S1700000, .i32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S100000, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000, .f32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x64, .f32⟩
  | .hbm, ⟨104, _⟩ => ⟨S1700000x1, .f32⟩
  | .hbm, ⟨105, _⟩ => ⟨S1700000x64, .f32⟩
  | .hbm, ⟨106, _⟩ => ⟨S1700000x64, .f32⟩
  | .hbm, ⟨107, _⟩ => ⟨S_, .f32⟩
  | .hbm, ⟨108, _⟩ => ⟨S100000x64, .f32⟩
  | .hbm, ⟨109, _⟩ => ⟨S1700000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | .hbm, ⟨114, _⟩ => ⟨S_, .f32⟩
  | .hbm, ⟨115, _⟩ => ⟨S100000x64, .f32⟩
  | .hbm, ⟨116, _⟩ => ⟨S100000x64, .f32⟩
  | .hbm, ⟨117, _⟩ => ⟨S100000x2, .f32⟩
  | .hbm, ⟨118, _⟩ => ⟨S1x2, .f32⟩
  | .hbm, ⟨119, _⟩ => ⟨S100000x2, .f32⟩
  | .hbm, ⟨120, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_c_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_call1_cst : Ref sig .tc := ⟨.hbm, 114, rfl⟩
abbrev main_call1_v0 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x2_S100000x2_1_0_0_1_n_n_wf : DotDims.WF S100000x64 S64x2 S100000x2 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The kernel's program run from any memory, with every array it leaves named.

  The program is three grid launches with stretches of array operations between them. Its run is followed segment by
  segment: the contents of every buffer after the last segment is a fold through the segments from the launch memory.
  The first theorem states the run with EVERY buffer at that fold; the second keeps of it the result array and the nine
  argument arrays, the arguments read back through the fold to what they were at launch.
-/
import proofs.«147811_j7155415515616_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer that outlives a launch
    holding the last boundary's contents: the fold of the six segments over the launch memory. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run keeping the result array, at the fold's value for it, and the nine arguments, unchanged. -/
theorem run_result : θ_run defs (onTc (τ := τ) (main (F := F))) ⟨m, fun _ => 0, ρ⟩ (fun r => ∀ c : Dev nD,
      r.2.mem ((c.tc : Thread nD τ).loc main_v55) = W6 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v55 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩)
    (run_buffers m ρ)

end Cert.KernelIdeal.Whole

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibHostDot.lean ====
/-
  A plain matrix product on the host, read at an index, on the extended reals.

  For dimension numbers that contract the left operand's second axis against the right operand's first — an [M, K] array
  times a [K, P] array — the host's product read at row `p` and column `q` is `Σ k, l (p, k) · r (k, q)` over the K
  contraction coordinates: the sum over the contraction's index set, which has one axis, re-indexed through that axis's
  coordinate. The two facts about the free axes are taken as hypotheses, since for given dimension numbers they hold by
  computation.
-/
import Idealize.ShloMosaic.PureOps.Ideal.Laws
import Idealize.ShloMosaic.Lib.ValueIdx

noncomputable section

open scoped BigOperators

namespace Cert.LibHostDot

open Idealize.ShloMosaic Idealize.ShloMosaic.ValueIdx

/-- The host's matrix product at (p, q) is the sum over the contraction coordinate of the left operand at (p, k) times the
    right operand at (k, q). -/
theorem dotGeneral_plain_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    Host.dotGeneral D prec l r (ix2 p q) = ∑ k : Fin K, l (ix2 p k) * r (ix2 k q) := by
  simp only [Host.dotGeneral]
  rw [Ideal.dotGeneral_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibHostDot

end
-- ==== Proof.Layer0.lean ====
/-
  The first launch: the node features times the first weight matrix.

  The grid has 20 points; point t loads rows 5000·t … 5000·t + 4999 of the [100000, 64] feature array and the whole
  [64, 64] weight matrix, multiplies them into a zero accumulator and writes the product back as the same rows of the
  output. On the extended reals the change of float format before the product is the identity and the product into zero
  is the plain sum over the 64 contraction coordinates, so every row of the output holds the row of the ONE whole
  product of the two arrays: the 20 blocks tile the rows, and the output array ends as that whole product.
-/
import proofs.«147811_j7155415515616_1_alg».proof.Proof.Gen.KernelIdeal.Frame
import proofs.«147811_j7155415515616_1_alg».proof.Proof.Gen.ReferenceIdeal
import proofs.«147811_j7155415515616_1_alg».proof.Proof.LibPlainDot
import proofs.«147811_j7155415515616_1_alg».proof.Proof.LibHostDot
import Idealize.ShloMosaic.Lib.Pipeline.Value
import Idealize.ShloMosaic.Lib.ValueIdx
import Idealize.ShloMosaic.PureOps.Ideal.Laws

set_option maxRecDepth 16384

noncomputable section

open scoped BigOperators

namespace Cert.Gcn.Layer0

open Idealize.ShloMosaic Idealize.ShloMosaic.TcCoe Idealize.ShloMosaic.ValueIdx Idealize.SL.Sem
open Cert.KernelIdeal Cert.KernelIdeal.Gen

/-! ## The two products' index facts -/

/-- The block product keeps the output's row in the left operand. -/
theorem blockDot_left (j : (⟨2, ![5000, 64]⟩ : Shape).Idx) (q : Cert.KernelIdeal.dot_S5000x64_S64x64_S5000x64_1_0_0_1_n_n.contr.Idx) :
    (Cert.KernelIdeal.dot_S5000x64_S64x64_S5000x64_1_0_0_1_n_n.lhsIdx j q 0).val = (j 0).val := by
  unfold DotDims.lhsIdx
  rw [dif_neg (show ¬(0 : Fin S5000x64.rank) ∈ Cert.KernelIdeal.dot_S5000x64_S64x64_S5000x64_1_0_0_1_n_n.lhsBatch by decide), dif_pos (show (0 : Fin S5000x64.rank) ∈ Cert.KernelIdeal.dot_S5000x64_S64x64_S5000x64_1_0_0_1_n_n.lhsNonContracting by decide)]
  rfl

/-- The block product keeps the output's column in the right operand. -/
theorem blockDot_right (j : (⟨2, ![5000, 64]⟩ : Shape).Idx) (q : Cert.KernelIdeal.dot_S5000x64_S64x64_S5000x64_1_0_0_1_n_n.contr.Idx) :
    (Cert.KernelIdeal.dot_S5000x64_S64x64_S5000x64_1_0_0_1_n_n.rhsIdx j q 1).val = (j 1).val := by
  unfold DotDims.rhsIdx
  rw [dif_neg (show ¬(1 : Fin S64x64.rank) ∈ Cert.KernelIdeal.dot_S5000x64_S64x64_S5000x64_1_0_0_1_n_n.rhsBatch by decide), dif_pos (show (1 : Fin S64x64.rank) ∈ Cert.KernelIdeal.dot_S5000x64_S64x64_S5000x64_1_0_0_1_n_n.rhsNonContracting by decide)]
  rfl

/-- The whole product keeps the output's row in the left operand. -/
theorem wholeDot_left (j : (⟨2, ![100000, 64]⟩ : Shape).Idx) (q : Cert.ReferenceIdeal.dot_S100000x64_S64x64_S100000x64_1_0_0_1_n_n.contr.Idx) :
    (Cert.ReferenceIdeal.dot_S100000x64_S64x64_S100000x64_1_0_0_1_n_n.lhsIdx j q 0).val = (j 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl

/-- The whole product keeps the output's column in the right operand. -/
theorem wholeDot_right (j : (⟨2, ![100000, 64]⟩ : Shape).Idx) (q : Cert.ReferenceIdeal.dot_S100000x64_S64x64_S100000x64_1_0_0_1_n_n.contr.Idx) :
    (Cert.ReferenceIdeal.dot_S100000x64_S64x64_S100000x64_1_0_0_1_n_n.rhsIdx j q 1).val = (j 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The whole product X · W of a [100000, 64] array and a [64, 64] matrix, as one array operation. -/
abbrev product (X : FVec Ideal ⟨2, ![100000, 64]⟩ .f32) (W : FVec Ideal ⟨2, ![64, 64]⟩ .f32) : FVec Ideal ⟨2, ![100000, 64]⟩ .f32 :=
  Host.dotGeneral (F := Ideal) (φ₁ := .f32) (φ₂ := .f32) Cert.ReferenceIdeal.dot_S100000x64_S64x64_S100000x64_1_0_0_1_n_n none X W

/-- The whole product at (P, q): the sum over the contraction. -/
theorem wholeDot_apply (X : FVec Ideal ⟨2, ![100000, 64]⟩ .f32) (W : FVec Ideal ⟨2, ![64, 64]⟩ .f32) (P : Fin 100000) (q : Fin 64) :
    product X W (ix2 P q) = ∑ k : Fin 64, X (ix2 P k) * W (ix2 k q) :=
  Cert.LibHostDot.dotGeneral_plain_apply (M := 100000) (K := 64) (P := 64) Cert.ReferenceIdeal.dot_S100000x64_S64x64_S100000x64_1_0_0_1_n_n rfl rfl wholeDot_left wholeDot_right rfl rfl none X W P q

/-! ## What one grid point stores -/

/-- The stored block at (p, q): the sum over k of the loaded feature block at (p, k) times the weight at (k, q). -/
theorem stored_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  exact Cert.LibPlainDot.matmul_zero_apply (M := 5000) (K := 64) (P := 64) Cert.KernelIdeal.dot_S5000x64_S64x64_S5000x64_1_0_0_1_n_n rfl rfl blockDot_left blockDot_right rfl rfl none _ _ p q

/-! ## The blocks' places in their arrays -/

theorem origin2 : (![0, 0] : Fin 2 → Nat) = fun _ => 0 := funext fun a => by fin_cases a <;> rfl

/-- The printed index maps over the 20 grid points: the feature block and the output block sit at block row t, the weight
    block at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Entry (p, k) of point t's feature block is entry (5000·t + p, k) of the feature array. -/
theorem feature_block (c : Dev nD) (t : Fin cfg0.N) (p : Fin 5000) (k : Fin 64) (R : Fin 100000) (hR : R.val = t.val * 5000 + p.val) :
    iblk0 V c 0 t (ix2 p k) = V c main_arg0 (ix2 R k) := by
  show V c main_arg0 (((cfg0.win 0).blk t).view.emb (ix2 p k)) = V c main_arg0 (ix2 R k)
  obtain ⟨e0, e1, e2, e3, e4, e5⟩ := index_facts t
  congr 1
  funext a; apply Fin.ext
  match a with
  | ⟨0, _⟩ => show win0_0.index t (0 : Fin 2) * 5000 + 1 * p.val = R.val; omega
  | ⟨1, _⟩ => show win0_0.index t (1 : Fin 2) * 64 + 1 * k.val = k.val; omega

/-- Entry (k, q) of point t's weight block is entry (k, q) of the weight matrix. -/
theorem weight_block (c : Dev nD) (t : Fin cfg0.N) (k : Fin 64) (q : Fin 64) :
    iblk0 V c 1 t (ix2 k q) = V c main_arg3 (ix2 k q) := by
  show V c main_arg3 (((cfg0.win 1).blk t).view.emb (ix2 k q)) = V c main_arg3 (ix2 k q)
  obtain ⟨e0, e1, e2, e3, e4, e5⟩ := index_facts t
  congr 1
  funext a; apply Fin.ext
  match a with
  | ⟨0, _⟩ => show win0_1.index t (0 : Fin 2) * 64 + 1 * k.val = k.val; omega
  | ⟨1, _⟩ => show win0_1.index t (1 : Fin 2) * 64 + 1 * q.val = q.val; omega

/-- Place (p, q) of point t's output block is place (5000·t + p, q) of the output array. -/
theorem output_place (t : Fin cfg0.N) (p : Fin 5000) (q : Fin 64) (R : Fin 100000) (hR : R.val = t.val * 5000 + p.val) :
    ((cfg0.win 2).blk t).view.emb (ix2 p q) = ix2 R q := by
  obtain ⟨e0, e1, e2, e3, e4, e5⟩ := index_facts t
  funext a; apply Fin.ext
  match a with
  | ⟨0, _⟩ => show win0_2.index t (0 : Fin 2) * 5000 + 1 * p.val = R.val; omega
  | ⟨1, _⟩ => show win0_2.index t (1 : Fin 2) * 64 + 1 * q.val = q.val; omega

/-! ## The output array after the launch -/

/-- What point t stores, entry by entry, is the whole product of the two arrays at the entry's place in the output. -/
theorem stored_eq_whole (c : Dev nD) (t : Fin cfg0.N) (y : S5000x64.Idx) :
    k0_pay1 (F := Ideal) (iblk0 V c 0 t) (iblk0 V c 1 t) y
      = product (V c main_arg0) (V c main_arg3) (((cfg0.win 2).blk t).view.emb y) := by
  obtain ⟨p, q, rfl⟩ : ∃ (p : Fin 5000) (q : Fin 64), y = ix2 p q := ⟨y 0, y 1, eq_ix2 y⟩
  have ht : t.val < 20 := lt_of_lt_of_eq t.isLt N_0
  have hp : p.val < 5000 := p.isLt
  obtain ⟨R, hR⟩ : ∃ R : Fin 100000, R.val = t.val * 5000 + p.val := ⟨⟨t.val * 5000 + p.val, by omega⟩, rfl⟩
  rw [output_place t p q R hR]
  refine (stored_apply (iblk0 V c 0 t) (iblk0 V c 1 t) p q).trans ?_
  refine Eq.trans ?_ (wholeDot_apply (V c main_arg0) (V c main_arg3) R q).symm
  refine Finset.sum_congr rfl fun k _ => ?_
  rw [feature_block V c t p k R hR, weight_block V c t k q]

/-- What point t writes back is block t of the whole product. -/
theorem flushed_eq (c : Dev nD) (t : Fin cfg0.N) :
    (dat0 V c).flushed 2 t = ((cfg0.win 2).blk t).view.read (Elt Ideal)
      (product (V c main_arg0) (V c main_arg3)) := by
  show (cfg0.win 2).cut (grid0.coords t) ((dat0 V c).after 2 t) = _
  rw [after0_2]
  unfold out0_2
  rw [View.canon_unit_zero origin2]
  simp only [View.ld_unit_zero (S := S5000x64) origin2, View.ld_unit_zero (S := S64x64) origin2]
  funext j
  exact stored_eq_whole V c t j

/-- An index of the output array is in point t's block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- Every row of the output lies in the block of the point row / 5000. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨e0, e1, e2, e3, e4, e5⟩ := index_facts t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE OUTPUT ARRAY after the launch is the whole product of the feature array and the weight matrix as the launch
    found them. -/
theorem output_eq (c : Dev nD) :
    (dat0 V c).arrAt 2 cfg0.N = product (V c main_arg0) (V c main_arg3) :=
  (dat0 V c).arrAt_eq_of_cover 2 _ (fun t _ => flushed_eq V c t) covered

end Cert.Gcn.Layer0

end
-- ==== Proof.LibBiasRow.lean ====
/-
  A bias vector used against every row of a table, and a scalar filling a table.

  A length-b vector added to every row of an [a, b] table is first made a [1, b] row and then repeated along the rows.
  Whether the row is made by a reshape and repeated by a trailing-axes broadcast, or made by placing the vector's axis
  on the table's second axis and repeated by an axis-by-axis broadcast, the repeated table holds at (p, k) the vector's
  entry k. A scalar broadcast to a table holds the scalar everywhere.
-/
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

variable {α : Type}

/-- The vector placed on the second axis of a [1, b] row, the row then broadcast axis by axis to [a, b]: at (p, k) the
    vector at k. -/
theorem placed_row_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (k : Fin b) :
    broadcastInDim ⟨2, ![a, b]⟩ ![0, 1] h2 (broadcastInDim ⟨2, ![1, b]⟩ ![1] h1 x) (ix2 p k) = x (ix1 k) := by
  refine (broadcastInDim_apply ![0, 1] h2 _ (ix2 p k) (ix2 (0 : Fin 1) k) fun ax => ?_).trans ?_
  · match ax with
    | ⟨0, _⟩ => rfl
    | ⟨1, _⟩ =>
      show k.val = if b = 1 then 0 else k.val
      split
      · have := k.isLt; omega
      · rfl
  · refine broadcastInDim_apply ![1] h1 x (ix2 (0 : Fin 1) k) (ix1 k) fun ax => ?_
    match ax with
    | ⟨0, _⟩ =>
      show k.val = if b = 1 then 0 else k.val
      split
      · have := k.isLt; omega
      · rfl

/-- The vector reshaped to a [1, b] row, the row then broadcast over the leading axis to [a, b]: at (p, k) the vector
    at k. -/
theorem reshaped_row_apply {a b : ℕ} (x : (⟨1, ![b]⟩ : Shape).Idx → α)
    (h1 : (⟨1, ![b]⟩ : Shape).ShapeCasts ⟨2, ![1, b]⟩)
    (h2 : (⟨2, ![1, b]⟩ : Shape).Broadcasts ⟨2, ![a, b]⟩) (p : Fin a) (k : Fin b) :
    broadcastTo ⟨2, ![a, b]⟩ (shapeCast ⟨2, ![1, b]⟩ x h1) h2 (ix2 p k) = x (ix1 k) := by
  refine (broadcastTo_apply _ h2 (ix2 p k) (ix2 (0 : Fin 1) k) fun ax => ?_).trans (shapeCast_a_1a_apply x h1 0 k)
  match ax with
  | ⟨0, _⟩ => rfl
  | ⟨1, _⟩ =>
    show k.val = if b = 1 then 0 else k.val
    split
    · have := k.isLt; omega
    · rfl

/-- A scalar broadcast to any shape holds the scalar at every index. -/
theorem fill_apply {t : Shape} (z : (⟨0, ![]⟩ : Shape).Idx → α) (h : (⟨0, ![]⟩ : Shape).BroadcastsInDim t ![]) (j : t.Idx) :
    broadcastInDim t ![] h z j = z ix0 :=
  broadcastInDim_apply ![] h z j ix0 fun ax => ax.elim0

end Cert.LibBiasRow

end
-- ==== Proof.Layer1.lean ====
/-
  The second launch: bias, maximum against zero, and the second weight matrix.

  Point t of the 20 loads rows 5000·t … 5000·t + 4999 of the aggregated [100000, 64] array, the whole bias vector and
  the whole [64, 64] weight matrix; it adds the bias to every row, takes the maximum against zero entry by entry, and
  multiplies by the weight matrix into a zero accumulator, writing the result back as the same rows of the output. On
  the extended reals the stored entry (p, q) is Σ_k max(a(p, k) + b(k), 0) · w(k, q), and that is row 5000·t + p of the
  ONE whole product (max(A + b, 0)) · W, whichever way the bias row is laid out; the blocks tile the rows.
-/
import proofs.«147811_j7155415515616_1_alg».proof.Proof.Gen.KernelIdeal.Frame
import proofs.«147811_j7155415515616_1_alg».proof.Proof.Gen.ReferenceIdeal
import proofs.«147811_j7155415515616_1_alg».proof.Proof.Layer0
import proofs.«147811_j7155415515616_1_alg».proof.Proof.LibBiasRow
import Idealize.ShloMosaic.Lib.Pipeline.Value
import Idealize.ShloMosaic.Lib.ValueIdx
import Idealize.ShloMosaic.PureOps.Ideal.Laws

set_option maxRecDepth 16384

noncomputable section

open scoped BigOperators

namespace Cert.Gcn.Layer1

open Idealize.ShloMosaic Idealize.ShloMosaic.TcCoe Idealize.ShloMosaic.ValueIdx Idealize.SL.Sem
open Cert.KernelIdeal Cert.KernelIdeal.Gen

/-- max(A + b, 0) · W as array operations: the bias placed on a [1, 64] row and repeated over the 100000 rows, zero
    broadcast from a scalar, then the whole product. -/
abbrev layer (A : FVec Ideal ⟨2, ![100000, 64]⟩ .f32) (b : FVec Ideal ⟨1, ![64]⟩ .f32) (W : FVec Ideal ⟨2, ![64, 64]⟩ .f32) :
    FVec Ideal ⟨2, ![100000, 64]⟩ .f32 :=
  Cert.Gcn.Layer0.product
    (maximumf (addf A (broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b)))
      (broadcastInDim Cert.ReferenceIdeal.S100000x64 ![] Cert.ReferenceIdeal.Facts₀.bcast_S_S100000x64 (constant (F := Ideal) Cert.ReferenceIdeal.S_ .f32 0x00000000#32))) W

/-- The whole array at (P, q). -/
theorem layer_apply (A : FVec Ideal ⟨2, ![100000, 64]⟩ .f32) (b : FVec Ideal ⟨1, ![64]⟩ .f32) (W : FVec Ideal ⟨2, ![64, 64]⟩ .f32)
    (P : Fin 100000) (q : Fin 64) :
    layer A b W (ix2 P q) = ∑ k : Fin 64, max (A (ix2 P k) + b (ix1 k)) (Ideal.ofBits .f32 0x00000000#32) * W (ix2 k q) := by
  refine (Cert.Gcn.Layer0.wholeDot_apply _ W P q).trans ?_
  refine Finset.sum_congr rfl fun k _ => ?_
  have e1 : broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b) (ix2 P k) = b (ix1 k) :=
    Cert.LibBiasRow.placed_row_apply (a := 100000) (b := 64) b _ _ P k
  have e2 : broadcastInDim Cert.ReferenceIdeal.S100000x64 ![] Cert.ReferenceIdeal.Facts₀.bcast_S_S100000x64 (constant (F := Ideal) Cert.ReferenceIdeal.S_ .f32 0x00000000#32) (ix2 P k) = Ideal.ofBits .f32 0x00000000#32 :=
    Cert.LibBiasRow.fill_apply _ _ _
  show max (A (ix2 P k) + broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b) (ix2 P k))
      (broadcastInDim Cert.ReferenceIdeal.S100000x64 ![] Cert.ReferenceIdeal.Facts₀.bcast_S_S100000x64 (constant (F := Ideal) Cert.ReferenceIdeal.S_ .f32 0x00000000#32) (ix2 P k)) * W (ix2 k q) = _
  rw [e1, e2]

/-! ## What one grid point stores -/

/-- The stored block at (p, q). -/
theorem stored_apply (v0 : Vec Ideal S5000x64 .f32) (v2 : Vec Ideal S64 .f32) (v9 : Vec Ideal S64x64 .f32) (p : Fin 5000) (q : Fin 64) :
    k1_pay1 (F := Ideal) v0 v2 v9 (ix2 p q)
      = ∑ k : Fin 64, max (v0 (ix2 p k) + v2 (ix1 k)) (Ideal.ofBits .f32 0x00000000#32) * v9 (ix2 k q) := by
  unfold k1_pay1
  refine (Cert.LibPlainDot.matmul_zero_apply (M := 5000) (K := 64) (P := 64) Cert.KernelIdeal.dot_S5000x64_S64x64_S5000x64_1_0_0_1_n_n rfl rfl
    Cert.Gcn.Layer0.blockDot_left Cert.Gcn.Layer0.blockDot_right rfl rfl none _ _ p q).trans ?_
  refine Finset.sum_congr rfl fun k _ => ?_
  have e0 : shapeCast S5000x64 v0 shapeCasts_S5000x64_S5000x64 = v0 := shapeCast_self v0 _
  have e1 : broadcastTo S5000x64 (shapeCast S1x64 v2 shapeCasts_S64_S1x64) broadcasts_S1x64_S5000x64 (ix2 p k) = v2 (ix1 k) :=
    Cert.LibBiasRow.reshaped_row_apply (a := 5000) (b := 64) v2 _ _ p k
  show max (shapeCast S5000x64 v0 shapeCasts_S5000x64_S5000x64 (ix2 p k)
        + broadcastTo S5000x64 (shapeCast S1x64 v2 shapeCasts_S64_S1x64) broadcasts_S1x64_S5000x64 (ix2 p k))
      (Ideal.ofBits .f32 0x00000000#32) * v9 (ix2 k q) = _
  rw [e0, e1]

/-! ## The blocks' places in their arrays -/

theorem origin1 : (![0] : Fin 1 → Nat) = fun _ => 0 := funext fun a => by fin_cases a; rfl

/-- The printed index maps over the 20 grid points: the aggregated block and the output block sit at block row t, the
    bias and the weight blocks at the origin. -/
theorem index_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Entry (p, k) of point t's aggregated block is entry (5000·t + p, k) of the aggregated array. -/
theorem rows_block (c : Dev nD) (t : Fin cfg1.N) (p : Fin 5000) (k : Fin 64) (R : Fin 100000) (hR : R.val = t.val * 5000 + p.val) :
    iblk1 V c 0 t (ix2 p k) = V c main_v40 (ix2 R k) := by
  show V c main_v40 (((cfg1.win 0).blk t).view.emb (ix2 p k)) = V c main_v40 (ix2 R k)
  obtain ⟨e0, e1, e2, e3, e4, e5, e6⟩ := index_facts t
  congr 1
  funext a; apply Fin.ext
  match a with
  | ⟨0, _⟩ => show win1_0.index t (0 : Fin 2) * 5000 + 1 * p.val = R.val; omega
  | ⟨1, _⟩ => show win1_0.index t (1 : Fin 2) * 64 + 1 * k.val = k.val; omega

/-- Entry k of point t's bias block is entry k of the bias vector. -/
theorem bias_block (c : Dev nD) (t : Fin cfg1.N) (k : Fin 64) :
    iblk1 V c 1 t (ix1 k) = V c main_arg4 (ix1 k) := by
  show V c main_arg4 (((cfg1.win 1).blk t).view.emb (ix1 k)) = V c main_arg4 (ix1 k)
  obtain ⟨e0, e1, e2, e3, e4, e5, e6⟩ := index_facts t
  congr 1
  funext a; apply Fin.ext
  match a with
  | ⟨0, _⟩ => show win1_1.index t (0 : Fin 1) * 64 + 1 * k.val = k.val; omega

/-- Entry (k, q) of point t's weight block is entry (k, q) of the weight matrix. -/
theorem weight_block (c : Dev nD) (t : Fin cfg1.N) (k : Fin 64) (q : Fin 64) :
    iblk1 V c 2 t (ix2 k q) = V c main_arg5 (ix2 k q) := by
  show V c main_arg5 (((cfg1.win 2).blk t).view.emb (ix2 k q)) = V c main_arg5 (ix2 k q)
  obtain ⟨e0, e1, e2, e3, e4, e5, e6⟩ := index_facts t
  congr 1
  funext a; apply Fin.ext
  match a with
  | ⟨0, _⟩ => show win1_2.index t (0 : Fin 2) * 64 + 1 * k.val = k.val; omega
  | ⟨1, _⟩ => show win1_2.index t (1 : Fin 2) * 64 + 1 * q.val = q.val; omega

/-- Place (p, q) of point t's output block is place (5000·t + p, q) of the output array. -/
theorem output_place (t : Fin cfg1.N) (p : Fin 5000) (q : Fin 64) (R : Fin 100000) (hR : R.val = t.val * 5000 + p.val) :
    ((cfg1.win 3).blk t).view.emb (ix2 p q) = ix2 R q := by
  obtain ⟨e0, e1, e2, e3, e4, e5, e6⟩ := index_facts t
  funext a; apply Fin.ext
  match a with
  | ⟨0, _⟩ => show win1_3.index t (0 : Fin 2) * 5000 + 1 * p.val = R.val; omega
  | ⟨1, _⟩ => show win1_3.index t (1 : Fin 2) * 64 + 1 * q.val = q.val; omega

/-! ## The output array after the launch -/

/-- What point t stores, entry by entry, is the whole array at the entry's place in the output. -/
theorem stored_eq_whole (c : Dev nD) (t : Fin cfg1.N) (y : S5000x64.Idx) :
    k1_pay1 (F := Ideal) (iblk1 V c 0 t) (iblk1 V c 1 t) (iblk1 V c 2 t) y
      = layer (V c main_v40) (V c main_arg4) (V c main_arg5) (((cfg1.win 3).blk t).view.emb y) := by
  obtain ⟨p, q, rfl⟩ : ∃ (p : Fin 5000) (q : Fin 64), y = ix2 p q := ⟨y 0, y 1, eq_ix2 y⟩
  have ht : t.val < 20 := lt_of_lt_of_eq t.isLt N_1
  have hp : p.val < 5000 := p.isLt
  obtain ⟨R, hR⟩ : ∃ R : Fin 100000, R.val = t.val * 5000 + p.val := ⟨⟨t.val * 5000 + p.val, by omega⟩, rfl⟩
  rw [output_place t p q R hR]
  refine (stored_apply (iblk1 V c 0 t) (iblk1 V c 1 t) (iblk1 V c 2 t) p q).trans ?_
  refine Eq.trans ?_ (layer_apply (V c main_v40) (V c main_arg4) (V c main_arg5) R q).symm
  refine Finset.sum_congr rfl fun k _ => ?_
  rw [rows_block V c t p k R hR, bias_block V c t k, weight_block V c t k q]

/-- What point t writes back is block t of the whole array. -/
theorem flushed_eq (c : Dev nD) (t : Fin cfg1.N) :
    (dat1 V c).flushed 3 t = ((cfg1.win 3).blk t).view.read (Elt Ideal)
      (layer (V c main_v40) (V c main_arg4) (V c main_arg5)) := by
  show (cfg1.win 3).cut (grid1.coords t) ((dat1 V c).after 3 t) = _
  rw [after1_3]
  unfold out1_3
  rw [View.canon_unit_zero Cert.Gcn.Layer0.origin2]
  simp only [View.ld_unit_zero (S := S5000x64) Cert.Gcn.Layer0.origin2, View.ld_unit_zero (S := S64x64) Cert.Gcn.Layer0.origin2,
    View.ld_unit_zero (S := S64) origin1]
  funext j
  exact stored_eq_whole V c t j

/-- An index of the output array is in point t's block iff each coordinate is in the block's range on its axis. -/
theorem mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v41).slice (win1_3.rect t)).set ↔ _
  rw [View.set_slice_whole, Rect.mem_set_unit]
  exact Iff.rfl

/-- Every row of the output lies in the block of the point row / 5000. -/
theorem covered (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨e0, e1, e2, e3, e4, e5, e6⟩ := index_facts t
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE OUTPUT ARRAY after the launch is max(A + b, 0) · W of the three arrays as the launch found them. -/
theorem output_eq (c : Dev nD) :
    (dat1 V c).arrAt 3 cfg1.N = layer (V c main_v40) (V c main_arg4) (V c main_arg5) :=
  (dat1 V c).arrAt_eq_of_cover 3 _ (fun t _ => flushed_eq V c t) covered

end Cert.Gcn.Layer1

end
-- ==== Proof.Layer2.lean ====
/-
  The third launch: bias, maximum against zero, the [64, 2] output weights and the output bias.

  Point t of the 20 loads rows 5000·t … 5000·t + 4999 of the second aggregated [100000, 64] array, the whole bias
  vector, the whole [64, 2] weight matrix and the 2 output biases; it adds the bias to every row, takes the maximum
  against zero, multiplies by the weights into a zero accumulator and adds the output bias to every row. On the extended
  reals the stored entry (p, q) is Σ_k max(a(p, k) + b(k), 0) · w(k, q) + bl(q): row 5000·t + p of the ONE whole array
  (max(A + b, 0)) · W + bl. The blocks tile the 100000 rows of the [100000, 2] result.
-/
import proofs.«147811_j7155415515616_1_alg».proof.Proof.Gen.KernelIdeal.Frame
import proofs.«147811_j7155415515616_1_alg».proof.Proof.Gen.ReferenceIdeal
import proofs.«147811_j7155415515616_1_alg».proof.Proof.LibPlainDot
import proofs.«147811_j7155415515616_1_alg».proof.Proof.LibHostDot
import proofs.«147811_j7155415515616_1_alg».proof.Proof.LibBiasRow
import Idealize.ShloMosaic.Lib.Pipeline.Value
import Idealize.ShloMosaic.Lib.ValueIdx
import Idealize.ShloMosaic.PureOps.Ideal.Laws

set_option maxRecDepth 16384

noncomputable section

open scoped BigOperators

namespace Cert.Gcn.Layer2

open Idealize.ShloMosaic Idealize.ShloMosaic.TcCoe Idealize.ShloMosaic.ValueIdx Idealize.SL.Sem
open Cert.KernelIdeal Cert.KernelIdeal.Gen

/-! ## The two products' index facts -/

/-- The block product keeps the output's row in the left operand. -/
theorem blockDot_left (j : (⟨2, ![5000, 2]⟩ : Shape).Idx) (q : Cert.KernelIdeal.dot_S5000x64_S64x2_S5000x2_1_0_0_1_n_n.contr.Idx) :
    (Cert.KernelIdeal.dot_S5000x64_S64x2_S5000x2_1_0_0_1_n_n.lhsIdx j q 0).val = (j 0).val := by
  unfold DotDims.lhsIdx
  rw [dif_neg (show ¬(0 : Fin S5000x64.rank) ∈ Cert.KernelIdeal.dot_S5000x64_S64x2_S5000x2_1_0_0_1_n_n.lhsBatch by decide), dif_pos (show (0 : Fin S5000x64.rank) ∈ Cert.KernelIdeal.dot_S5000x64_S64x2_S5000x2_1_0_0_1_n_n.lhsNonContracting by decide)]
  rfl

/-- The block product keeps the output's column in the right operand. -/
theorem blockDot_right (j : (⟨2, ![5000, 2]⟩ : Shape).Idx) (q : Cert.KernelIdeal.dot_S5000x64_S64x2_S5000x2_1_0_0_1_n_n.contr.Idx) :
    (Cert.KernelIdeal.dot_S5000x64_S64x2_S5000x2_1_0_0_1_n_n.rhsIdx j q 1).val = (j 1).val := by
  unfold DotDims.rhsIdx
  rw [dif_neg (show ¬(1 : Fin S64x2.rank) ∈ Cert.KernelIdeal.dot_S5000x64_S64x2_S5000x2_1_0_0_1_n_n.rhsBatch by decide), dif_pos (show (1 : Fin S64x2.rank) ∈ Cert.KernelIdeal.dot_S5000x64_S64x2_S5000x2_1_0_0_1_n_n.rhsNonContracting by decide)]
  rfl

/-- The whole product keeps the output's row in the left operand. -/
theorem wholeDot_left (j : (⟨2, ![100000, 2]⟩ : Shape).Idx) (q : Cert.ReferenceIdeal.dot_S100000x64_S64x2_S100000x2_1_0_0_1_n_n.contr.Idx) :
    (Cert.ReferenceIdeal.dot_S100000x64_S64x2_S100000x2_1_0_0_1_n_n.lhsIdx j q 0).val = (j 0).val := by
  unfold DotDims.lhsIdx
  rw [dif_neg (show ¬(0 : Fin Cert.ReferenceIdeal.S100000x64.rank) ∈ Cert.ReferenceIdeal.dot_S100000x64_S64x2_S100000x2_1_0_0_1_n_n.lhsBatch by decide), dif_pos (show (0 : Fin Cert.ReferenceIdeal.S100000x64.rank) ∈ Cert.ReferenceIdeal.dot_S100000x64_S64x2_S100000x2_1_0_0_1_n_n.lhsNonContracting by decide)]
  rfl

/-- The whole product keeps the output's column in the right operand. -/
theorem wholeDot_right (j : (⟨2, ![100000, 2]⟩ : Shape).Idx) (q : Cert.ReferenceIdeal.dot_S100000x64_S64x2_S100000x2_1_0_0_1_n_n.contr.Idx) :
    (Cert.ReferenceIdeal.dot_S100000x64_S64x2_S100000x2_1_0_0_1_n_n.rhsIdx j q 1).val = (j 1).val := by
  unfold DotDims.rhsIdx
  rw [dif_neg (show ¬(1 : Fin Cert.ReferenceIdeal.S64x2.rank) ∈ Cert.ReferenceIdeal.dot_S100000x64_S64x2_S100000x2_1_0_0_1_n_n.rhsBatch by decide), dif_pos (show (1 : Fin Cert.ReferenceIdeal.S64x2.rank) ∈ Cert.ReferenceIdeal.dot_S100000x64_S64x2_S100000x2_1_0_0_1_n_n.rhsNonContracting by decide)]
  rfl

/-- The whole product X · W of a [100000, 64] array and a [64, 2] matrix, as one array operation. -/
abbrev product (X : FVec Ideal ⟨2, ![100000, 64]⟩ .f32) (W : FVec Ideal ⟨2, ![64, 2]⟩ .f32) : FVec Ideal ⟨2, ![100000, 2]⟩ .f32 :=
  Host.dotGeneral (F := Ideal) (φ₁ := .f32) (φ₂ := .f32) Cert.ReferenceIdeal.dot_S100000x64_S64x2_S100000x2_1_0_0_1_n_n none X W

/-- The whole product at (P, q): the sum over the contraction. -/
theorem wholeDot_apply (X : FVec Ideal ⟨2, ![100000, 64]⟩ .f32) (W : FVec Ideal ⟨2, ![64, 2]⟩ .f32) (P : Fin 100000) (q : Fin 2) :
    product X W (ix2 P q) = ∑ k : Fin 64, X (ix2 P k) * W (ix2 k q) :=
  Cert.LibHostDot.dotGeneral_plain_apply (M := 100000) (K := 64) (P := 2) Cert.ReferenceIdeal.dot_S100000x64_S64x2_S100000x2_1_0_0_1_n_n rfl rfl wholeDot_left wholeDot_right rfl rfl none X W P q

/-- (max(A + b, 0)) · W + bl as array operations: each bias placed on a one-row table and repeated over the 100000 rows,
    zero broadcast from a scalar. -/
abbrev layer (A : FVec Ideal ⟨2, ![100000, 64]⟩ .f32) (b : FVec Ideal ⟨1, ![64]⟩ .f32) (W : FVec Ideal ⟨2, ![64, 2]⟩ .f32)
    (bl : FVec Ideal ⟨1, ![2]⟩ .f32) : FVec Ideal ⟨2, ![100000, 2]⟩ .f32 :=
  addf (product
    (maximumf (addf A (broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b)))
      (broadcastInDim Cert.ReferenceIdeal.S100000x64 ![] Cert.ReferenceIdeal.Facts₀.bcast_S_S100000x64 (constant (F := Ideal) Cert.ReferenceIdeal.S_ .f32 0x00000000#32))) W)
    (broadcastInDim Cert.ReferenceIdeal.S100000x2 ![0, 1] Cert.ReferenceIdeal.Facts₀.bcast_S1x2_S100000x2_0_1 (broadcastInDim Cert.ReferenceIdeal.S1x2 ![1] Cert.ReferenceIdeal.Facts₀.bcast_S2_S1x2_1 bl))

/-- The whole array at (P, q). -/
theorem layer_apply (A : FVec Ideal ⟨2, ![100000, 64]⟩ .f32) (b : FVec Ideal ⟨1, ![64]⟩ .f32) (W : FVec Ideal ⟨2, ![64, 2]⟩ .f32)
    (bl : FVec Ideal ⟨1, ![2]⟩ .f32) (P : Fin 100000) (q : Fin 2) :
    layer A b W bl (ix2 P q)
      = (∑ k : Fin 64, max (A (ix2 P k) + b (ix1 k)) (Ideal.ofBits .f32 0x00000000#32) * W (ix2 k q)) + bl (ix1 q) := by
  have eb : broadcastInDim Cert.ReferenceIdeal.S100000x2 ![0, 1] Cert.ReferenceIdeal.Facts₀.bcast_S1x2_S100000x2_0_1 (broadcastInDim Cert.ReferenceIdeal.S1x2 ![1] Cert.ReferenceIdeal.Facts₀.bcast_S2_S1x2_1 bl) (ix2 P q) = bl (ix1 q) :=
    Cert.LibBiasRow.placed_row_apply (a := 100000) (b := 2) bl _ _ P q
  show product _ W (ix2 P q) + broadcastInDim Cert.ReferenceIdeal.S100000x2 ![0, 1] Cert.ReferenceIdeal.Facts₀.bcast_S1x2_S100000x2_0_1 (broadcastInDim Cert.ReferenceIdeal.S1x2 ![1] Cert.ReferenceIdeal.Facts₀.bcast_S2_S1x2_1 bl) (ix2 P q) = _
  rw [eb, wholeDot_apply]
  congr 1
  refine Finset.sum_congr rfl fun k _ => ?_
  have e1 : broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b) (ix2 P k) = b (ix1 k) :=
    Cert.LibBiasRow.placed_row_apply (a := 100000) (b := 64) b _ _ P k
  have e2 : broadcastInDim Cert.ReferenceIdeal.S100000x64 ![] Cert.ReferenceIdeal.Facts₀.bcast_S_S100000x64 (constant (F := Ideal) Cert.ReferenceIdeal.S_ .f32 0x00000000#32) (ix2 P k) = Ideal.ofBits .f32 0x00000000#32 :=
    Cert.LibBiasRow.fill_apply _ _ _
  show max (A (ix2 P k) + broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b) (ix2 P k))
      (broadcastInDim Cert.ReferenceIdeal.S100000x64 ![] Cert.ReferenceIdeal.Facts₀.bcast_S_S100000x64 (constant (F := Ideal) Cert.ReferenceIdeal.S_ .f32 0x00000000#32) (ix2 P k)) * W (ix2 k q) = _
  rw [e1, e2]

/-! ## What one grid point stores -/

/-- The stored block at (p, q). -/
theorem stored_apply (v0 : Vec Ideal S5000x64 .f32) (v2 : Vec Ideal S64 .f32) (v9 : Vec Ideal S64x2 .f32) (v12 : Vec Ideal S2 .f32)
    (p : Fin 5000) (q : Fin 2) :
    k2_pay1 (F := Ideal) v0 v2 v9 v12 (ix2 p q)
      = (∑ k : Fin 64, max (v0 (ix2 p k) + v2 (ix1 k)) (Ideal.ofBits .f32 0x00000000#32) * v9 (ix2 k q)) + v12 (ix1 q) := by
  unfold k2_pay1
  have eb : broadcastTo S5000x2 (shapeCast S1x2 v12 shapeCasts_S2_S1x2) broadcasts_S1x2_S5000x2 (ix2 p q) = v12 (ix1 q) :=
    Cert.LibBiasRow.reshaped_row_apply (a := 5000) (b := 2) v12 _ _ p q
  refine Eq.trans (congrArg₂ (· + ·) (Cert.LibPlainDot.matmul_zero_apply (M := 5000) (K := 64) (P := 2) Cert.KernelIdeal.dot_S5000x64_S64x2_S5000x2_1_0_0_1_n_n rfl rfl
    blockDot_left blockDot_right rfl rfl none _ _ p q) eb) ?_
  congr 1
  refine Finset.sum_congr rfl fun k _ => ?_
  have e0 : shapeCast S5000x64 v0 shapeCasts_S5000x64_S5000x64 = v0 := shapeCast_self v0 _
  have e1 : broadcastTo S5000x64 (shapeCast S1x64 v2 shapeCasts_S64_S1x64) broadcasts_S1x64_S5000x64 (ix2 p k) = v2 (ix1 k) :=
    Cert.LibBiasRow.reshaped_row_apply (a := 5000) (b := 64) v2 _ _ p k
  show max (shapeCast S5000x64 v0 shapeCasts_S5000x64_S5000x64 (ix2 p k)
        + broadcastTo S5000x64 (shapeCast S1x64 v2 shapeCasts_S64_S1x64) broadcasts_S1x64_S5000x64 (ix2 p k))
      (Ideal.ofBits .f32 0x00000000#32) * v9 (ix2 k q) = _
  rw [e0, e1]

/-! ## The blocks' places in their arrays -/

theorem origin2 : (![0, 0] : Fin 2 → Nat) = fun _ => 0 := funext fun a => by fin_cases a <;> rfl
theorem origin1 : (![0] : Fin 1 → Nat) = fun _ => 0 := funext fun a => by fin_cases a; rfl

/-- The printed index maps over the 20 grid points: the aggregated block and the output block sit at block row t, every
    other block at the origin. -/
theorem index_facts : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- Entry (p, k) of point t's aggregated block is entry (5000·t + p, k) of the aggregated array. -/
theorem rows_block (c : Dev nD) (t : Fin cfg2.N) (p : Fin 5000) (k : Fin 64) (R : Fin 100000) (hR : R.val = t.val * 5000 + p.val) :
    iblk2 V c 0 t (ix2 p k) = V c main_v54 (ix2 R k) := by
  show V c main_v54 (((cfg2.win 0).blk t).view.emb (ix2 p k)) = V c main_v54 (ix2 R k)
  obtain ⟨e0, e1, e2, e3, e4, e5, e6, e7⟩ := index_facts t
  congr 1
  funext a; apply Fin.ext
  match a with
  | ⟨0, _⟩ => show win2_0.index t (0 : Fin 2) * 5000 + 1 * p.val = R.val; omega
  | ⟨1, _⟩ => show win2_0.index t (1 : Fin 2) * 64 + 1 * k.val = k.val; omega

/-- Entry k of point t's bias block is entry k of the bias vector. -/
theorem bias_block (c : Dev nD) (t : Fin cfg2.N) (k : Fin 64) :
    iblk2 V c 1 t (ix1 k) = V c main_arg6 (ix1 k) := by
  show V c main_arg6 (((cfg2.win 1).blk t).view.emb (ix1 k)) = V c main_arg6 (ix1 k)
  obtain ⟨e0, e1, e2, e3, e4, e5, e6, e7⟩ := index_facts t
  congr 1
  funext a; apply Fin.ext
  match a with
  | ⟨0, _⟩ => show win2_1.index t (0 : Fin 1) * 64 + 1 * k.val = k.val; omega

/-- Entry (k, q) of point t's weight block is entry (k, q) of the weight matrix. -/
theorem weight_block (c : Dev nD) (t : Fin cfg2.N) (k : Fin 64) (q : Fin 2) :
    iblk2 V c 2 t (ix2 k q) = V c main_arg7 (ix2 k q) := by
  show V c main_arg7 (((cfg2.win 2).blk t).view.emb (ix2 k q)) = V c main_arg7 (ix2 k q)
  obtain ⟨e0, e1, e2, e3, e4, e5, e6, e7⟩ := index_facts t
  congr 1
  funext a; apply Fin.ext
  match a with
  | ⟨0, _⟩ => show win2_2.index t (0 : Fin 2) * 64 + 1 * k.val = k.val; omega
  | ⟨1, _⟩ => show win2_2.index t (1 : Fin 2) * 2 + 1 * q.val = q.val; omega

/-- Entry q of point t's output-bias block is entry q of the output bias. -/
theorem outbias_block (c : Dev nD) (t : Fin cfg2.N) (q : Fin 2) :
    iblk2 V c 3 t (ix1 q) = V c main_arg8 (ix1 q) := by
  show V c main_arg8 (((cfg2.win 3).blk t).view.emb (ix1 q)) = V c main_arg8 (ix1 q)
  obtain ⟨e0, e1, e2, e3, e4, e5, e6, e7⟩ := index_facts t
  congr 1
  funext a; apply Fin.ext
  match a with
  | ⟨0, _⟩ => show win2_3.index t (0 : Fin 1) * 2 + 1 * q.val = q.val; omega

/-- Place (p, q) of point t's output block is place (5000·t + p, q) of the output array. -/
theorem output_place (t : Fin cfg2.N) (p : Fin 5000) (q : Fin 2) (R : Fin 100000) (hR : R.val = t.val * 5000 + p.val) :
    ((cfg2.win 4).blk t).view.emb (ix2 p q) = ix2 R q := by
  obtain ⟨e0, e1, e2, e3, e4, e5, e6, e7⟩ := index_facts t
  funext a; apply Fin.ext
  match a with
  | ⟨0, _⟩ => show win2_4.index t (0 : Fin 2) * 5000 + 1 * p.val = R.val; omega
  | ⟨1, _⟩ => show win2_4.index t (1 : Fin 2) * 2 + 1 * q.val = q.val; omega

/-! ## The output array after the launch -/

/-- What point t stores, entry by entry, is the whole array at the entry's place in the output. -/
theorem stored_eq_whole (c : Dev nD) (t : Fin cfg2.N) (y : S5000x2.Idx) :
    k2_pay1 (F := Ideal) (iblk2 V c 0 t) (iblk2 V c 1 t) (iblk2 V c 2 t) (iblk2 V c 3 t) y
      = layer (V c main_v54) (V c main_arg6) (V c main_arg7) (V c main_arg8) (((cfg2.win 4).blk t).view.emb y) := by
  obtain ⟨p, q, rfl⟩ : ∃ (p : Fin 5000) (q : Fin 2), y = ix2 p q := ⟨y 0, y 1, eq_ix2 y⟩
  have ht : t.val < 20 := lt_of_lt_of_eq t.isLt N_2
  have hp : p.val < 5000 := p.isLt
  obtain ⟨R, hR⟩ : ∃ R : Fin 100000, R.val = t.val * 5000 + p.val := ⟨⟨t.val * 5000 + p.val, by omega⟩, rfl⟩
  rw [output_place t p q R hR]
  refine (stored_apply (iblk2 V c 0 t) (iblk2 V c 1 t) (iblk2 V c 2 t) (iblk2 V c 3 t) p q).trans ?_
  refine Eq.trans ?_ (layer_apply (V c main_v54) (V c main_arg6) (V c main_arg7) (V c main_arg8) R q).symm
  refine congrArg₂ (· + ·) (Finset.sum_congr rfl fun k _ => ?_) (outbias_block V c t q)
  rw [rows_block V c t p k R hR, bias_block V c t k, weight_block V c t k q]

/-- What point t writes back is block t of the whole array. -/
theorem flushed_eq (c : Dev nD) (t : Fin cfg2.N) :
    (dat2 V c).flushed 4 t = ((cfg2.win 4).blk t).view.read (Elt Ideal)
      (layer (V c main_v54) (V c main_arg6) (V c main_arg7) (V c main_arg8)) := by
  show (cfg2.win 4).cut (grid2.coords t) ((dat2 V c).after 4 t) = _
  rw [after2_4]
  unfold out2_4
  rw [View.canon_unit_zero origin2]
  simp only [View.ld_unit_zero (S := S5000x64) origin2, View.ld_unit_zero (S := S64x2) origin2,
    View.ld_unit_zero (S := S64) origin1, View.ld_unit_zero (S := S2) origin1]
  funext j
  exact stored_eq_whole V c t j

/-- An index of the output array is in point t's block iff each coordinate is in the block's range on its axis. -/
theorem mem_block (t : Fin cfg2.N) (i : S100000x2.Idx) :
    i ∈ ((cfg2.win 4).blk t).view.set ↔ ∀ a : Fin 2, win2_4.index t a * S5000x2.size a ≤ (i a).val ∧ (i a).val < win2_4.index t a * S5000x2.size a + S5000x2.size a := by
  show i ∈ ((View.whole main_v55).slice (win2_4.rect t)).set ↔ _
  rw [View.set_slice_whole, Rect.mem_set_unit]
  exact Iff.rfl

/-- Every row of the output lies in the block of the point row / 5000. -/
theorem covered (i : S100000x2.Idx) : ∃ t : Fin cfg2.N, (cfg2.win 4).flush t = true ∧ i ∈ ((cfg2.win 4).blk t).view.set := by
  have hi0 : (i 0).val < 100000 := (i 0).isLt
  have hi1 : (i 1).val < 2 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨e0, e1, e2, e3, e4, e5, e6, e7⟩ := index_facts t
  refine ⟨t, flush2_4 t, ?_⟩
  rw [mem_block]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 2 ≤ (i 1).val ∧ (i 1).val < win2_4.index t (1 : Fin 2) * 2 + 2; omega

/-- THE RESULT ARRAY after the launch is (max(A + b, 0)) · W + bl of the four arrays as the launch found them. -/
theorem output_eq (c : Dev nD) :
    (dat2 V c).arrAt 4 cfg2.N = layer (V c main_v54) (V c main_arg6) (V c main_arg7) (V c main_arg8) :=
  (dat2 V c).arrAt_eq_of_cover 4 _ (fun t _ => flushed_eq V c t) covered

end Cert.Gcn.Layer2

end
-- ==== Proof.Chain.lean ====
/-
  The graph convolution network as one function of its argument arrays.

  The edge list is a [2, 1600000] array of node numbers: row 0 the sources, row 1 the targets. Both rows are extended by
  the 100000 self loops 0, 1, …, 99999. A node's degree is the number of extended targets equal to it; an extended edge
  carries the weight 1/√deg(source) · 1/√deg(target). Aggregating a [100000, 64] table H over the graph gathers H's row
  at every extended source, multiplies it by the edge's weight, and adds it into the row of the edge's target (a node
  number below zero is first moved up by 100000 when it is used as a row to read). The network is

      (max(Agg(max(Agg(x · W1) + b1, 0) · W2) + b2, 0)) · Wl + bl.

  Everything here is a composition of whole-array operations; nothing is evaluated.
-/
import proofs.«147811_j7155415515616_1_alg».proof.Proof.Gen.ReferenceIdeal
import proofs.«147811_j7155415515616_1_alg».proof.Proof.Layer0
import proofs.«147811_j7155415515616_1_alg».proof.Proof.Layer1
import proofs.«147811_j7155415515616_1_alg».proof.Proof.Layer2

noncomputable section

namespace Cert.Gcn.Chain

open Idealize.ShloMosaic Cert.ReferenceIdeal Cert.ReferenceIdeal.Facts₀

/-- The edge list's row of sources followed by the self loops. -/
abbrev sources (E : (⟨S2x1600000, .i32⟩ : BufTy).Contents (Elt Ideal)) : IVec S1700000 32 :=
  concatenate S1700000 0 [⟨S1600000, (shapeCast _ (extractStridedSlice S1x1600000 ![0, 0] E slices_S2x1600000_S1x1600000_0_0) shapeCasts_S1x1600000_S1600000)⟩, ⟨S100000, (iotaInDim S100000 32 0)⟩] concatenates_S1600000_S100000_S1700000_d0

/-- The edge list's row of targets followed by the self loops. -/
abbrev targets (E : (⟨S2x1600000, .i32⟩ : BufTy).Contents (Elt Ideal)) : IVec S1700000 32 :=
  concatenate S1700000 0 [⟨S1600000, (shapeCast _ (extractStridedSlice S1x1600000 ![1, 0] E slices_S2x1600000_S1x1600000_1_0) shapeCasts_S1x1600000_S1600000)⟩, ⟨S100000, (iotaInDim S100000 32 0)⟩] concatenates_S1600000_S100000_S1700000_d0

/-- Node numbers as a column of rows to read: a number below zero is moved up by 100000. -/
abbrev readRows (ix : IVec S1700000 32) : IVec S1700000x1 32 :=
  broadcastInDim S1700000x1 ![0] bcast_S1700000_S1700000x1_0 (select (cmpi .slt ix (broadcastInDim S1700000 ![] bcast_S_S1700000 (constantI S_ 32 0#32))) (addi ix (broadcastInDim S1700000 ![] bcast_S_S1700000 (constantI S_ 32 100000#32))) ix)

/-- 1/√degree of every node: ones added into zeros at the extended targets, then the inverse square root. -/
abbrev invSqrtDegree (E : (⟨S2x1600000, .i32⟩ : BufTy).Contents (Elt Ideal)) : FVec Ideal S100000 .f32 :=
  Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (targets E)) (broadcastInDim S1700000 ![] bcast_S_S1700000 (constant S_ .f32 0x3F800000#32)))

/-- The weight of every extended edge. -/
abbrev weight (E : (⟨S2x1600000, .i32⟩ : BufTy).Contents (Elt Ideal)) : FVec Ideal S1700000 .f32 :=
  mulf (Host.gather gather_S100000_S1700000x1_S1700000_n_0_n_n_0_1_1 (invSqrtDegree E) (readRows (sources E))) (Host.gather gather_S100000_S1700000x1_S1700000_n_0_n_n_0_1_1 (invSqrtDegree E) (readRows (targets E)))

/-- Aggregation of a node table with given extended sources, targets and edge weights. -/
abbrev aggregateWith (H : FVec Ideal S100000x64 .f32) (src dst : IVec S1700000 32) (w : FVec Ideal S1700000 .f32) : FVec Ideal S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 H (readRows src)) (broadcastInDim S1700000x64 ![0, 1] bcast_S1700000x1_S1700000x64_0_1 (broadcastInDim S1700000x1 ![0] bcast_S1700000_S1700000x1_0 w)))

/-- Aggregation of a node table over the graph of an edge list. -/
abbrev aggregate (H : FVec Ideal S100000x64 .f32) (E : (⟨S2x1600000, .i32⟩ : BufTy).Contents (Elt Ideal)) : FVec Ideal S100000x64 .f32 :=
  aggregateWith H (sources E) (targets E) (weight E)

/-- The whole network. -/
abbrev network (x : FVec Ideal S100000x64 .f32) (E : (⟨S2x1600000, .i32⟩ : BufTy).Contents (Elt Ideal))
    (W1 : FVec Ideal S64x64 .f32) (b1 : FVec Ideal S64 .f32) (W2 : FVec Ideal S64x64 .f32) (b2 : FVec Ideal S64 .f32)
    (Wl : FVec Ideal S64x2 .f32) (bl : FVec Ideal S2 .f32) : FVec Ideal S100000x2 .f32 :=
  Cert.Gcn.Layer2.layer (aggregate (Cert.Gcn.Layer1.layer (aggregate (Cert.Gcn.Layer0.product x W1) E) b1 W2) E) b2 Wl bl

end Cert.Gcn.Chain

end
-- ==== Proof.Fold.lean ====
/-
  The kernel's program computes the network.

  The contents of every buffer after the program's last segment is a fold through its six segments: three stretches of
  array operations and three grid launches, alternating. Read back from the result array, segment by segment:
  the last launch leaves (max(A₂ + b2, 0)) · Wl + bl of the array A₂ it found; the stretch before it aggregates over the
  graph the array the second launch left; the second launch leaves max(A₁ + b1, 0) · W2; the stretch before that
  aggregates the array the first launch left, x · W1. The extended sources and targets and the edge weights are computed
  once, by the first stretch, and no later segment writes them; no segment writes an argument. So the result array ends
  holding the network of the launch arrays.
-/
import proofs.«147811_j7155415515616_1_alg».proof.Proof.Gen.KernelIdeal.Frame
import proofs.«147811_j7155415515616_1_alg».proof.Proof.Chain
import Idealize.ShloMosaic.Lib.StableHlo.Run

set_option maxRecDepth 16384

noncomputable section

namespace Cert.Gcn.Fold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## After the first stretch: the arguments as launched, the extended edge list and the edge weights -/

theorem at1_arg0 : W1 m ρ c (Proc.devRef .tc main_arg0) = m ((c : Thread nD τ).loc main_arg0) := by
  show StableHlo.after hostOps0 (W0 m ρ c) (Proc.devRef .tc main_arg0) = _
  after_results_simp <;> rfl
theorem at1_arg3 : W1 m ρ c (Proc.devRef .tc main_arg3) = m ((c : Thread nD τ).loc main_arg3) := by
  show StableHlo.after hostOps0 (W0 m ρ c) (Proc.devRef .tc main_arg3) = _
  after_results_simp <;> rfl
theorem at1_arg4 : W1 m ρ c (Proc.devRef .tc main_arg4) = m ((c : Thread nD τ).loc main_arg4) := by
  show StableHlo.after hostOps0 (W0 m ρ c) (Proc.devRef .tc main_arg4) = _
  after_results_simp <;> rfl
theorem at1_arg5 : W1 m ρ c (Proc.devRef .tc main_arg5) = m ((c : Thread nD τ).loc main_arg5) := by
  show StableHlo.after hostOps0 (W0 m ρ c) (Proc.devRef .tc main_arg5) = _
  after_results_simp <;> rfl
theorem at1_arg6 : W1 m ρ c (Proc.devRef .tc main_arg6) = m ((c : Thread nD τ).loc main_arg6) := by
  show StableHlo.after hostOps0 (W0 m ρ c) (Proc.devRef .tc main_arg6) = _
  after_results_simp <;> rfl
theorem at1_arg7 : W1 m ρ c (Proc.devRef .tc main_arg7) = m ((c : Thread nD τ).loc main_arg7) := by
  show StableHlo.after hostOps0 (W0 m ρ c) (Proc.devRef .tc main_arg7) = _
  after_results_simp <;> rfl
theorem at1_arg8 : W1 m ρ c (Proc.devRef .tc main_arg8) = m ((c : Thread nD τ).loc main_arg8) := by
  show StableHlo.after hostOps0 (W0 m ρ c) (Proc.devRef .tc main_arg8) = _
  after_results_simp <;> rfl
theorem at1_v5 : W1 m ρ c (Proc.devRef .tc main_v5) = Cert.Gcn.Chain.sources (m ((c : Thread nD τ).loc main_arg1)) := by
  show StableHlo.after hostOps0 (W0 m ρ c) (Proc.devRef .tc main_v5) = _
  after_results_simp <;> rfl
theorem at1_v6 : W1 m ρ c (Proc.devRef .tc main_v6) = Cert.Gcn.Chain.targets (m ((c : Thread nD τ).loc main_arg1)) := by
  show StableHlo.after hostOps0 (W0 m ρ c) (Proc.devRef .tc main_v6) = _
  after_results_simp <;> rfl
theorem at1_v26 : W1 m ρ c (Proc.devRef .tc main_v26) = Cert.Gcn.Chain.weight (m ((c : Thread nD τ).loc main_arg1)) := by
  show StableHlo.after hostOps0 (W0 m ρ c) (Proc.devRef .tc main_v26) = _
  after_results_simp <;> rfl

/-! ## What the later segments leave alone -/

theorem keep2_arg4 : W2 m ρ c (Proc.devRef .tc main_arg4) = W1 m ρ c (Proc.devRef .tc main_arg4) := W2_of_ne m ρ c main_arg4 (by decide)
theorem keep2_arg5 : W2 m ρ c (Proc.devRef .tc main_arg5) = W1 m ρ c (Proc.devRef .tc main_arg5) := W2_of_ne m ρ c main_arg5 (by decide)
theorem keep2_arg6 : W2 m ρ c (Proc.devRef .tc main_arg6) = W1 m ρ c (Proc.devRef .tc main_arg6) := W2_of_ne m ρ c main_arg6 (by decide)
theorem keep2_arg7 : W2 m ρ c (Proc.devRef .tc main_arg7) = W1 m ρ c (Proc.devRef .tc main_arg7) := W2_of_ne m ρ c main_arg7 (by decide)
theorem keep2_arg8 : W2 m ρ c (Proc.devRef .tc main_arg8) = W1 m ρ c (Proc.devRef .tc main_arg8) := W2_of_ne m ρ c main_arg8 (by decide)
theorem keep2_v5 : W2 m ρ c (Proc.devRef .tc main_v5) = W1 m ρ c (Proc.devRef .tc main_v5) := W2_of_ne m ρ c main_v5 (by decide)
theorem keep2_v6 : W2 m ρ c (Proc.devRef .tc main_v6) = W1 m ρ c (Proc.devRef .tc main_v6) := W2_of_ne m ρ c main_v6 (by decide)
theorem keep2_v26 : W2 m ρ c (Proc.devRef .tc main_v26) = W1 m ρ c (Proc.devRef .tc main_v26) := W2_of_ne m ρ c main_v26 (by decide)
theorem keep3_arg4 : W3 m ρ c (Proc.devRef .tc main_arg4) = W2 m ρ c (Proc.devRef .tc main_arg4) := by
  show StableHlo.after hostOps1 (W2 m ρ c) (Proc.devRef .tc main_arg4) = _
  after_results_simp <;> rfl
theorem keep3_arg5 : W3 m ρ c (Proc.devRef .tc main_arg5) = W2 m ρ c (Proc.devRef .tc main_arg5) := by
  show StableHlo.after hostOps1 (W2 m ρ c) (Proc.devRef .tc main_arg5) = _
  after_results_simp <;> rfl
theorem keep3_arg6 : W3 m ρ c (Proc.devRef .tc main_arg6) = W2 m ρ c (Proc.devRef .tc main_arg6) := by
  show StableHlo.after hostOps1 (W2 m ρ c) (Proc.devRef .tc main_arg6) = _
  after_results_simp <;> rfl
theorem keep3_arg7 : W3 m ρ c (Proc.devRef .tc main_arg7) = W2 m ρ c (Proc.devRef .tc main_arg7) := by
  show StableHlo.after hostOps1 (W2 m ρ c) (Proc.devRef .tc main_arg7) = _
  after_results_simp <;> rfl
theorem keep3_arg8 : W3 m ρ c (Proc.devRef .tc main_arg8) = W2 m ρ c (Proc.devRef .tc main_arg8) := by
  show StableHlo.after hostOps1 (W2 m ρ c) (Proc.devRef .tc main_arg8) = _
  after_results_simp <;> rfl
theorem keep3_v5 : W3 m ρ c (Proc.devRef .tc main_v5) = W2 m ρ c (Proc.devRef .tc main_v5) := by
  show StableHlo.after hostOps1 (W2 m ρ c) (Proc.devRef .tc main_v5) = _
  after_results_simp <;> rfl
theorem keep3_v6 : W3 m ρ c (Proc.devRef .tc main_v6) = W2 m ρ c (Proc.devRef .tc main_v6) := by
  show StableHlo.after hostOps1 (W2 m ρ c) (Proc.devRef .tc main_v6) = _
  after_results_simp <;> rfl
theorem keep3_v26 : W3 m ρ c (Proc.devRef .tc main_v26) = W2 m ρ c (Proc.devRef .tc main_v26) := by
  show StableHlo.after hostOps1 (W2 m ρ c) (Proc.devRef .tc main_v26) = _
  after_results_simp <;> rfl
theorem keep4_arg6 : W4 m ρ c (Proc.devRef .tc main_arg6) = W3 m ρ c (Proc.devRef .tc main_arg6) := W4_of_ne m ρ c main_arg6 (by decide)
theorem keep4_arg7 : W4 m ρ c (Proc.devRef .tc main_arg7) = W3 m ρ c (Proc.devRef .tc main_arg7) := W4_of_ne m ρ c main_arg7 (by decide)
theorem keep4_arg8 : W4 m ρ c (Proc.devRef .tc main_arg8) = W3 m ρ c (Proc.devRef .tc main_arg8) := W4_of_ne m ρ c main_arg8 (by decide)
theorem keep4_v5 : W4 m ρ c (Proc.devRef .tc main_v5) = W3 m ρ c (Proc.devRef .tc main_v5) := W4_of_ne m ρ c main_v5 (by decide)
theorem keep4_v6 : W4 m ρ c (Proc.devRef .tc main_v6) = W3 m ρ c (Proc.devRef .tc main_v6) := W4_of_ne m ρ c main_v6 (by decide)
theorem keep4_v26 : W4 m ρ c (Proc.devRef .tc main_v26) = W3 m ρ c (Proc.devRef .tc main_v26) := W4_of_ne m ρ c main_v26 (by decide)
theorem keep5_arg6 : W5 m ρ c (Proc.devRef .tc main_arg6) = W4 m ρ c (Proc.devRef .tc main_arg6) := by
  show StableHlo.after hostOps2 (W4 m ρ c) (Proc.devRef .tc main_arg6) = _
  after_results_simp <;> rfl
theorem keep5_arg7 : W5 m ρ c (Proc.devRef .tc main_arg7) = W4 m ρ c (Proc.devRef .tc main_arg7) := by
  show StableHlo.after hostOps2 (W4 m ρ c) (Proc.devRef .tc main_arg7) = _
  after_results_simp <;> rfl
theorem keep5_arg8 : W5 m ρ c (Proc.devRef .tc main_arg8) = W4 m ρ c (Proc.devRef .tc main_arg8) := by
  show StableHlo.after hostOps2 (W4 m ρ c) (Proc.devRef .tc main_arg8) = _
  after_results_simp <;> rfl

/-! ## The first launch and the first aggregation -/

/-- The first launch leaves x · W1. -/
theorem at2_v27 : W2 m ρ c (Proc.devRef .tc main_v27) = Cert.Gcn.Layer0.product (m ((c : Thread nD τ).loc main_arg0)) (m ((c : Thread nD τ).loc main_arg3)) :=
  (W2_arr m ρ c 2).trans ((Cert.Gcn.Layer0.output_eq (V1 m ρ) c).trans
    (congrArg₂ Cert.Gcn.Layer0.product (at1_arg0 m ρ c) (at1_arg3 m ρ c)))

/-- The second stretch aggregates what it finds. -/
theorem at3_v40_with : W3 m ρ c (Proc.devRef .tc main_v40) = Cert.Gcn.Chain.aggregateWith (W2 m ρ c (Proc.devRef .tc main_v27))
    (W2 m ρ c (Proc.devRef .tc main_v5)) (W2 m ρ c (Proc.devRef .tc main_v6)) (W2 m ρ c (Proc.devRef .tc main_v26)) := by
  show StableHlo.after hostOps1 (W2 m ρ c) (Proc.devRef .tc main_v40) = _
  after_results_simp <;> rfl

/-- The second launch is entered with the aggregation of x · W1 over the graph. -/
theorem at3_v40 : W3 m ρ c (Proc.devRef .tc main_v40)
    = Cert.Gcn.Chain.aggregate (Cert.Gcn.Layer0.product (m ((c : Thread nD τ).loc main_arg0)) (m ((c : Thread nD τ).loc main_arg3))) (m ((c : Thread nD τ).loc main_arg1)) := by
  rw [at3_v40_with, at2_v27, keep2_v5, keep2_v6, keep2_v26, at1_v5, at1_v6, at1_v26]

theorem at3_arg4 : W3 m ρ c (Proc.devRef .tc main_arg4) = m ((c : Thread nD τ).loc main_arg4) := (keep3_arg4 m ρ c).trans ((keep2_arg4 m ρ c).trans (at1_arg4 m ρ c))
theorem at3_arg5 : W3 m ρ c (Proc.devRef .tc main_arg5) = m ((c : Thread nD τ).loc main_arg5) := (keep3_arg5 m ρ c).trans ((keep2_arg5 m ρ c).trans (at1_arg5 m ρ c))

/-! ## The second launch and the second aggregation -/

/-- The second launch leaves max(A₁ + b1, 0) · W2. -/
theorem at4_v41 : W4 m ρ c (Proc.devRef .tc main_v41)
    = Cert.Gcn.Layer1.layer (Cert.Gcn.Chain.aggregate (Cert.Gcn.Layer0.product (m ((c : Thread nD τ).loc main_arg0)) (m ((c : Thread nD τ).loc main_arg3))) (m ((c : Thread nD τ).loc main_arg1)))
        (m ((c : Thread nD τ).loc main_arg4)) (m ((c : Thread nD τ).loc main_arg5)) := by
  refine (W4_arr m ρ c 3).trans ((Cert.Gcn.Layer1.output_eq (V3 m ρ) c).trans ?_)
  show Cert.Gcn.Layer1.layer (W3 m ρ c (Proc.devRef .tc main_v40)) (W3 m ρ c (Proc.devRef .tc main_arg4)) (W3 m ρ c (Proc.devRef .tc main_arg5)) = _
  rw [at3_v40, at3_arg4, at3_arg5]

/-- The third stretch aggregates what it finds. -/
theorem at5_v54_with : W5 m ρ c (Proc.devRef .tc main_v54) = Cert.Gcn.Chain.aggregateWith (W4 m ρ c (Proc.devRef .tc main_v41))
    (W4 m ρ c (Proc.devRef .tc main_v5)) (W4 m ρ c (Proc.devRef .tc main_v6)) (W4 m ρ c (Proc.devRef .tc main_v26)) := by
  show StableHlo.after hostOps2 (W4 m ρ c) (Proc.devRef .tc main_v54) = _
  after_results_simp <;> rfl

theorem at4_v5 : W4 m ρ c (Proc.devRef .tc main_v5) = Cert.Gcn.Chain.sources (m ((c : Thread nD τ).loc main_arg1)) :=
  (keep4_v5 m ρ c).trans ((keep3_v5 m ρ c).trans ((keep2_v5 m ρ c).trans (at1_v5 m ρ c)))
theorem at4_v6 : W4 m ρ c (Proc.devRef .tc main_v6) = Cert.Gcn.Chain.targets (m ((c : Thread nD τ).loc main_arg1)) :=
  (keep4_v6 m ρ c).trans ((keep3_v6 m ρ c).trans ((keep2_v6 m ρ c).trans (at1_v6 m ρ c)))
theorem at4_v26 : W4 m ρ c (Proc.devRef .tc main_v26) = Cert.Gcn.Chain.weight (m ((c : Thread nD τ).loc main_arg1)) :=
  (keep4_v26 m ρ c).trans ((keep3_v26 m ρ c).trans ((keep2_v26 m ρ c).trans (at1_v26 m ρ c)))
theorem at5_arg6 : W5 m ρ c (Proc.devRef .tc main_arg6) = m ((c : Thread nD τ).loc main_arg6) :=
  (keep5_arg6 m ρ c).trans ((keep4_arg6 m ρ c).trans ((keep3_arg6 m ρ c).trans ((keep2_arg6 m ρ c).trans (at1_arg6 m ρ c))))
theorem at5_arg7 : W5 m ρ c (Proc.devRef .tc main_arg7) = m ((c : Thread nD τ).loc main_arg7) :=
  (keep5_arg7 m ρ c).trans ((keep4_arg7 m ρ c).trans ((keep3_arg7 m ρ c).trans ((keep2_arg7 m ρ c).trans (at1_arg7 m ρ c))))
theorem at5_arg8 : W5 m ρ c (Proc.devRef .tc main_arg8) = m ((c : Thread nD τ).loc main_arg8) :=
  (keep5_arg8 m ρ c).trans ((keep4_arg8 m ρ c).trans ((keep3_arg8 m ρ c).trans ((keep2_arg8 m ρ c).trans (at1_arg8 m ρ c))))

/-- The third launch is entered with the aggregation of the second launch's array. -/
theorem at5_v54 : W5 m ρ c (Proc.devRef .tc main_v54)
    = Cert.Gcn.Chain.aggregate (Cert.Gcn.Layer1.layer (Cert.Gcn.Chain.aggregate (Cert.Gcn.Layer0.product (m ((c : Thread nD τ).loc main_arg0)) (m ((c : Thread nD τ).loc main_arg3))) (m ((c : Thread nD τ).loc main_arg1)))
        (m ((c : Thread nD τ).loc main_arg4)) (m ((c : Thread nD τ).loc main_arg5))) (m ((c : Thread nD τ).loc main_arg1)) := by
  rw [at5_v54_with, at4_v41, at4_v5, at4_v6, at4_v26]

/-! ## The third launch: the result -/

/-- THE RESULT ARRAY at the end of the program is the network of the launch arrays. -/
theorem result_eq : W6 m ρ c (Proc.devRef .tc main_v55)
    = Cert.Gcn.Chain.network (m ((c : Thread nD τ).loc main_arg0)) (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) := by
  refine (W6_arr m ρ c 4).trans ((Cert.Gcn.Layer2.output_eq (V5 m ρ) c).trans ?_)
  show Cert.Gcn.Layer2.layer (W5 m ρ c (Proc.devRef .tc main_v54)) (W5 m ρ c (Proc.devRef .tc main_arg6)) (W5 m ρ c (Proc.devRef .tc main_arg7)) (W5 m ρ c (Proc.devRef .tc main_arg8)) = _
  rw [at5_v54, at5_arg6, at5_arg7, at5_arg8]

end Cert.Gcn.Fold

end
-- ==== Proof.RefNet.lean ====
/-
  The reference program computes the network.

  Its run ends with the result array at the composition of its array operations applied to the launch contents of the
  arguments. Read with the names of the graph convolution network — the extended sources and targets, the edge weights,
  the aggregation, the three dense layers — that composition is the network itself: the reference recomputes the
  extended edge list and the weights for its second aggregation, and the two copies are the same operations of the same
  edge list.
-/
import proofs.«147811_j7155415515616_1_alg».proof.Proof.Gen.ReferenceIdeal.Run
import proofs.«147811_j7155415515616_1_alg».proof.Proof.Chain

set_option maxRecDepth 16384

noncomputable section

namespace Cert.Gcn.RefNet

open Idealize.ShloMosaic Idealize.ShloMosaic.TcCoe Idealize.SL.Sem
open Cert.ReferenceIdeal

/-- The reference's result term is the network of the argument arrays. -/
theorem result_eq (m : (ℓ : Loc nD τ sig) → Buf (Elt Ideal) ℓ) (c : Dev nD) :
    Cert.ReferenceIdeal.Value.res_main_v89 (F := Ideal) m c
      = Cert.Gcn.Chain.network (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8)) := by
  unfold Cert.ReferenceIdeal.Value.res_main_v89
  rfl

end Cert.Gcn.RefNet

end
-- ==== Proof.lean ====
/-
  A two-layer graph convolution network with a final linear layer, on 100000 nodes with 64 features and 1600000 edges:

      out = (max(Agg(max(Agg(x · W1) + b1, 0) · W2) + b2, 0)) · Wl + bl,

  where Agg adds, into every node's row, the rows of its in-neighbours (and its own), each scaled by
  1/√deg(source) · 1/√deg(target), the degrees counted with the self loops.

  The kernel's program computes the three dense products in three grid launches of 20 points each, a point taking 5000
  rows, and the two aggregations between them by whole-array gathers and scatter-additions; the reference computes
  everything by whole-array operations. On the extended reals, where a change of float format is the identity and a
  product into a zero accumulator is the plain sum over the contraction, each launch leaves exactly the whole-array
  expression the reference uses for that layer (Layer0, Layer1, Layer2), and the aggregations are the same operations of
  the same edge list in both programs (Chain). So both programs end with the network of their arguments (Fold for the
  kernel's program, RefNet for the reference), and from memories that agree on the arguments the results agree. No
  algebraic law beyond the sum form of the two kinds of product is used, and the arguments' finiteness is not needed.
  The idealized kernel is the kernel's own text read on the extended reals (no rewrite was applied), so the conjunct
  relating the two is trivial.
-/
import proofs.«147811_j7155415515616_1_alg».proof.Defs
import proofs.«147811_j7155415515616_1_alg».proof.Proof.Gen.Kernel
import proofs.«147811_j7155415515616_1_alg».proof.Proof.Gen.Kernel.Skeleton
import proofs.«147811_j7155415515616_1_alg».proof.Proof.Gen.Kernel.Launch
import proofs.«147811_j7155415515616_1_alg».proof.Proof.Gen.Kernel.Points
import proofs.«147811_j7155415515616_1_alg».proof.Proof.Gen.Kernel.Frame
import proofs.«147811_j7155415515616_1_alg».proof.Proof.Gen.KernelIdeal
import proofs.«147811_j7155415515616_1_alg».proof.Proof.Gen.KernelIdeal.Skeleton
import proofs.«147811_j7155415515616_1_alg».proof.Proof.Gen.KernelIdeal.Launch
import proofs.«147811_j7155415515616_1_alg».proof.Proof.Gen.KernelIdeal.Points
import proofs.«147811_j7155415515616_1_alg».proof.Proof.Gen.KernelIdeal.Frame
import proofs.«147811_j7155415515616_1_alg».proof.Proof.Gen.ReferenceIdeal
import proofs.«147811_j7155415515616_1_alg».proof.Proof.Gen.ReferenceIdeal.Run
import proofs.«147811_j7155415515616_1_alg».proof.Proof.Gen.Pre_finite_inputs
import proofs.«147811_j7155415515616_1_alg».proof.Proof.KernelRun
import proofs.«147811_j7155415515616_1_alg».proof.Proof.Fold
import proofs.«147811_j7155415515616_1_alg».proof.Proof.RefNet
import Idealize.ShloMosaic.Adequacy
import Idealize.ShloMosaic.Init

noncomputable section

namespace Cert.Proof

open Idealize.ShloMosaic Idealize.ShloMosaic.TcCoe Idealize.SL.Sem

/-- The kernel's program terminates without a fault and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read on the extended reals. -/
theorem preserves : Cert.preserves_Kernel_KernelIdeal := trivial

/-- From memories agreeing on the arguments both programs end with the network of the arguments as their result. -/
theorem algebraic : Cert.algebraic_KernelIdeal_ReferenceIdeal := by
  intro m ρ m' ρ' _ hagree
  refine ⟨fun c => Cert.Gcn.Chain.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Gcn.Fold.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.Gcn.RefNet.result_eq, a0, a1, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
